-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S8x1024x2048 .f32) (main_arg1 : FVec F S8x8192x2048 .f32) (main_arg2 : FVec F S8x8192 .f32) (main_arg3 : FVec F S8x8192x2048 .f32) (main_arg4 : FVec F S8x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192x2048 .f32 := Host.absf main_arg3
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_arg4 main_v13 main_v16
-- ==== Kernel.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1x8192 : Shape := ⟨3, ![8, 1, 8192]⟩
abbrev S8x1x2048 : Shape := ⟨3, ![8, 1, 2048]⟩
abbrev S1x256x2048 : Shape := ⟨3, ![1, 256, 2048]⟩
abbrev S1x512x2048 : Shape := ⟨3, ![1, 512, 2048]⟩
abbrev S1x1x512 : Shape := ⟨3, ![1, 1, 512]⟩
abbrev S1x1x2048 : Shape := ⟨3, ![1, 1, 2048]⟩
abbrev S256x2048 : Shape := ⟨2, ![256, 2048]⟩
abbrev S512x2048 : Shape := ⟨2, ![512, 2048]⟩
abbrev S256x512 : Shape := ⟨2, ![256, 512]⟩
abbrev S1x512 : Shape := ⟨2, ![1, 512]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1x8192, .f32⟩
  | .hbm, ⟨6, _⟩ => ⟨S8x1x2048, .f32⟩
  | .hbm, ⟨7, _⟩ => ⟨S8x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x512, .f32⟩
  | .local _ .vmem, ⟨5, _⟩ => ⟨S1x1x512, .f32⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x256x2048, .f32⟩
  | .local _ .vmem, ⟨11, _⟩ => ⟨S1x256x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x8192_S8x1x8192 : S8x8192.ShapeCasts S8x1x8192
  shapeCasts_S8x2048_S8x1x2048 : S8x2048.ShapeCasts S8x1x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S256x512 : S1x512.Broadcasts S256x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  dot_S256x2048_S512x2048_S256x512_1_1_0_0_n_n_wf : DotDims.WF S256x2048 S512x2048 S256x512 [1] [1] [0] [0] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .f32 = 32 ∨ (Rect.block (s := S8x1024x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x8192x2048.size a
  hwx0_1 : ∀ i : grid0.Coords, EltTy.bits .f32 = 32 ∨ (Rect.block (s := S8x8192x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x8192.size a
  hwx0_2 : ∀ i : grid0.Coords, EltTy.bits .f32 = 32 ∨ (Rect.block (s := S8x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x8192x2048.size a
  hwx0_3 : ∀ i : grid0.Coords, EltTy.bits .f32 = 32 ∨ (Rect.block (s := S8x8192x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x1024x2048.size a
  hwx0_5 : ∀ i : grid0.Coords, EltTy.bits .f32 = 32 ∨ (Rect.block (s := S8x1024x2048) S1x256x2048.size (cc0_transform_5 i) (hinb0_5 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1024x8192 : Shape := ⟨3, ![8, 1024, 8192]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1024x8192, .f32⟩
  | .hbm, ⟨6, _⟩ => ⟨S8x1x8192, .f32⟩
  | .hbm, ⟨7, _⟩ => ⟨S8x1024x8192, .f32⟩
  | .hbm, ⟨8, _⟩ => ⟨S8x1024x8192, .f32⟩
  | .hbm, ⟨9, _⟩ => ⟨S_, .f32⟩
  | .hbm, ⟨10, _⟩ => ⟨S8x1024x8192, .f32⟩
  | .hbm, ⟨11, _⟩ => ⟨S8x1024x8192, .f32⟩
  | .hbm, ⟨12, _⟩ => ⟨S8x1024x2048, .f32⟩
  | .hbm, ⟨13, _⟩ => ⟨S8x1x2048, .f32⟩
  | .hbm, ⟨14, _⟩ => ⟨S8x1024x2048, .f32⟩
  | .hbm, ⟨15, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x8192_S8x1x8192_0_2 : S8x8192.BroadcastsInDim S8x1x8192 (![0, 2] : Fin 2 → Fin S8x1x8192.rank)
  bcast_S8x1x8192_S8x1024x8192_0_1_2 : S8x1x8192.BroadcastsInDim S8x1024x8192 (![0, 1, 2] : Fin 3 → Fin S8x1024x8192.rank)
  bcast_S_S8x1024x8192 : S_.BroadcastsInDim S8x1024x8192 (![] : Fin 0 → Fin S8x1024x8192.rank)
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  dot_S8x1024x2048_S8x8192x2048_S8x1024x8192_2_2_1_1_0_0_wf : DotDims.WF S8x1024x2048 S8x8192x2048 S8x1024x8192 [2] [2] [1] [1] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x8192x2048_S8x1024x8192_2_2_1_1_0_0 : DotDims S8x1024x2048 S8x8192x2048 S8x1024x8192 where
  lhsContracting := [2]
  rhsContracting := [2]
  lhsNonContracting := [1]
  rhsNonContracting := [1]
  lhsBatch := [0]
  rhsBatch := [0]
  wf := dot_S8x1024x2048_S8x8192x2048_S8x1024x8192_2_2_1_1_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.ExpertFfn.lean ====
/-
  The function both programs compute, written once over the extended reals.

  Eight experts. Expert `e` maps row `r` of its input `X[e]` (1024 rows of 2048 entries) through a hidden layer of
  8192 units and back to 2048 outputs:

      act e r h = max (Σ_j X[e,r,j] · W1[e,h,j] + B1[e,h]) 0            (j over the 2048 inputs)
      ffn (e,r,o)  = Σ_h act e r h · W2[e,h,o]  +  B2[e,o]              (h over the 8192 hidden units)

  The sum over the hidden units may be taken in sixteen consecutive blocks of 512 units each: addition of extended
  reals is commutative and associative, so regrouping a finite sum needs no finiteness of its terms.
-/
import Idealize.ShloMosaic.PureOps.Ideal.Laws
import Idealize.ShloMosaic.Lib.ValueIdx
import proofs.«107905_j31155692765926_2_alg».proof.Proof.LibBlockSum

noncomputable section

open scoped BigOperators

namespace Cert.ExpertFfn

open Idealize.ShloMosaic Idealize.ShloMosaic.ValueIdx

/-- The inputs' shapes: the rows `[8, 1024, 2048]`, both weight arrays `[8, 8192, 2048]`, the two biases. -/
abbrev SX : Shape := ⟨3, ![8, 1024, 2048]⟩
abbrev SW : Shape := ⟨3, ![8, 8192, 2048]⟩
abbrev SB1 : Shape := ⟨2, ![8, 8192]⟩
abbrev SB2 : Shape := ⟨2, ![8, 2048]⟩

variable (X : SX.Idx → EReal) (W1 : SW.Idx → EReal) (B1 : SB1.Idx → EReal) (W2 : SW.Idx → EReal)
  (B2 : SB2.Idx → EReal)

/-- Hidden unit `h` of expert `e` at row `r`: the row against the unit's weights, plus its bias, clamped below at
    zero (the word `0x00000000` is the real number 0). -/
def act (e : Fin 8) (r : Fin 1024) (h : Fin 8192) : EReal :=
  max ((∑ j : Fin 2048, X (ix3 e r j) * W1 (ix3 e h j)) + B1 (ix2 e h)) (Ideal.ofBits .f32 0x00000000#32)

/-- What hidden unit `h` contributes to output `o`. -/
def term (e : Fin 8) (r : Fin 1024) (o : Fin 2048) (h : Fin 8192) : EReal :=
  act X W1 B1 e r h * W2 (ix3 e h o)

/-- The whole network at an output index `(e, r, o)`. -/
def ffn : SX.Idx → EReal := fun i =>
  (∑ h : Fin 8192, term X W1 B1 W2 (i 0) (i 1) (i 2) h) + B2 (ix2 (i 0) (i 2))

/-- A contribution depends on its four coordinates only through their values. -/
theorem term_congr {e e' : Fin 8} {r r' : Fin 1024} {o o' : Fin 2048} {h h' : Fin 8192}
    (he : e.val = e'.val) (hr : r.val = r'.val) (ho : o.val = o'.val) (hh : h.val = h'.val) :
    term X W1 B1 W2 e r o h = term X W1 B1 W2 e' r' o' h' := by
  obtain rfl := Fin.ext he
  obtain rfl := Fin.ext hr
  obtain rfl := Fin.ext ho
  obtain rfl := Fin.ext hh
  rfl

/-- Sixteen partial sums, the `s`-th over the hidden units `512·s … 512·s + 511`, add up to the sum over all
    8192 units. -/
theorem sum_sixteen_blocks (g : Fin 8192 → EReal) (A : ℕ → EReal)
    (hA : ∀ (s : ℕ) (hs : s < 16), A s = ∑ k : Fin 512, g ⟨512 * s + k.val, by have := k.isLt; omega⟩) :
    ∑ s ∈ Finset.range 16, A s = ∑ h : Fin 8192, g h := by
  rw [← Fin.sum_univ_eq_sum_range A 16, ← LibBlockSum.sum_fin_blocks_of_eq 16 512 rfl g]
  exact Finset.sum_congr rfl fun j _ => hA j.val j.isLt

end Cert.ExpertFfn

end
-- ==== Proof.ReferenceValue.lean ====
/-
  The reference, read index by index, is the network `ExpertFfn.ffn` of its five arguments.

  Its two matrix products are sums over the contracted axis (the 2048 inputs, then the 8192 hidden units), the
  biases are broadcast along the row axis, and the clamp is the maximum with the zero word; composing the stages at
  an output index `(e, r, o)` gives exactly the defining expression of `ffn`.
-/
import proofs.«107905_j31155692765926_2_alg».proof.Proof.Gen.ReferenceIdeal.Read
import proofs.«107905_j31155692765926_2_alg».proof.Proof.ExpertFfn

noncomputable section

open scoped BigOperators

namespace Cert.ReferenceIdeal.RefValue

open Cert.ReferenceIdeal Cert.ReferenceIdeal.Gen Cert.ReferenceIdeal.Read Idealize.ShloMosaic
  Idealize.ShloMosaic.ValueIdx Cert.ExpertFfn

/-- The last stage of the reference is `ffn` of the arguments. -/
theorem reference_is_ffn (x0 : (⟨S8x1024x2048, .f32⟩ : BufTy).Contents (Elt Ideal))
    (x1 : (⟨S8x8192x2048, .f32⟩ : BufTy).Contents (Elt Ideal)) (x2 : (⟨S8x8192, .f32⟩ : BufTy).Contents (Elt Ideal))
    (x3 : (⟨S8x8192x2048, .f32⟩ : BufTy).Contents (Elt Ideal)) (x4 : (⟨S8x2048, .f32⟩ : BufTy).Contents (Elt Ideal)) :
    val_main_v8 (F := Ideal) x0 x1 x2 x3 x4 = ffn x0 x1 x2 x3 x4 := by
  funext i
  -- the composed index functions of the stages, in coordinates
  have eX : ∀ (k : Fin 8192) (k' : Fin 2048),
      lidx_main_v0 (lidx_main_v5 i k) k' = (ix3 (n0 := 8) (n1 := 1024) (i 0) (i 1) k' : S8x1024x2048.Idx) :=
    fun k k' => funext fun a => Fin.ext (by match a with | ⟨0, _⟩ => rfl | ⟨1, _⟩ => rfl | ⟨2, _⟩ => rfl)
  have eW1 : ∀ (k : Fin 8192) (k' : Fin 2048),
      ridx_main_v0 (lidx_main_v5 i k) k' = (ix3 (n0 := 8) (i 0) k k' : S8x8192x2048.Idx) :=
    fun k k' => funext fun a => Fin.ext (by match a with | ⟨0, _⟩ => rfl | ⟨1, _⟩ => rfl | ⟨2, _⟩ => rfl)
  have eB1 : ∀ (k : Fin 8192),
      idx_main_v1 (idx_main_v2 (lidx_main_v5 i k)) = (ix2 (n0 := 8) (i 0) k : S8x8192.Idx) :=
    fun k => funext fun a => Fin.ext (by match a with | ⟨0, _⟩ => rfl | ⟨1, _⟩ => rfl)
  have eW2 : ∀ (k : Fin 8192), ridx_main_v5 i k = (ix3 (n0 := 8) (n2 := 2048) (i 0) k (i 2) : S8x8192x2048.Idx) :=
    fun k => funext fun a => Fin.ext (by match a with | ⟨0, _⟩ => rfl | ⟨1, _⟩ => rfl | ⟨2, _⟩ => rfl)
  have eB2 : idx_main_v6 (idx_main_v7 i) = (ix2 (n0 := 8) (n1 := 2048) (i 0) (i 2) : S8x2048.Idx) :=
    funext fun a => Fin.ext (by match a with | ⟨0, _⟩ => rfl | ⟨1, _⟩ => rfl)
  rw [val_main_v8_apply, val_main_v5_apply, val_main_v7_apply, val_main_v6_apply, eB2]
  unfold ffn term act
  refine congrArg (· + x4 _) (Finset.sum_congr rfl fun k _ => ?_)
  rw [val_main_v4_apply, val_main_v3_apply, val_main_v0_apply, val_main_v2_apply, val_main_v1_apply,
    val_main_call0_v0_apply, val_main_call0_cst_apply, eB1, eW2]
  simp only [eX, eW1, Ideal.addf_def, Ideal.maximumf_def, Ideal.ofBits_def]

end Cert.ReferenceIdeal.RefValue

end
-- ==== Proof.BodyValue.lean ====
/-
  What one grid step computes, entry by entry, over the extended reals.

  A step holds a block of 256 rows of one expert's input (`x0`, as `[1, 256, 2048]`), a block of 512 hidden units'
  input weights (`x1`, `[1, 512, 2048]`) with their biases (`x2`, `[1, 1, 512]`), the same units' output weights
  (`x3`, `[1, 512, 2048]`), and the output block accumulated so far (`acc`, `[1, 256, 2048]`). It adds to entry
  `(r, o)` of the accumulator

      Σ_k max (Σ_j x0[r,j] · x1[k,j] + x2[k]) 0 · x3[k,o]        (k over the block's 512 units, j over the 2048 inputs):

  both matrix products accumulate into a zero splat, so each is the plain sum over its contracted axis, and the
  roundings to sixteen bits on the way into them are the identity on extended reals. The first step of a run starts
  from the zero block; the last step then adds the output bias row (`[1, 1, 2048]`) to every row.
-/
import proofs.«107905_j31155692765926_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The two matrix products at an entry -/

/-- The kept axis of each operand of the first product reads the result index: its row for the left operand (the
    input rows), its column for the right one (the hidden units). -/
theorem rows_units_lhs_kept (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide),
    dif_pos (show (0 : Fin S256x2048.rank) ∈ dot_S256x2048_S512x2048_S256x512_1_1_0_0_n_n.lhsNonContracting by decide)]
  rfl

theorem rows_units_rhs_kept (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide),
    dif_pos (show (0 : Fin S512x2048.rank) ∈ dot_S256x2048_S512x2048_S256x512_1_1_0_0_n_n.rhsNonContracting by decide)]
  rfl

/-- Rows against hidden units: the product that contracts the second axis of BOTH operands reads row `r` of the
    left operand against row `k` of the right one. -/
theorem rows_units_apply (A : FVec Ideal S256x2048 .bf16) (B : FVec Ideal S512x2048 .bf16) (r : Fin 256) (k : Fin 512) :
    matmul dot_S256x2048_S512x2048_S256x512_1_1_0_0_n_n none A B (constant S256x512 .f32 0x00000000#32) (ix2 r k)
      = ∑ j : Fin 2048, A (ix2 r j) * B (ix2 k j) := by
  simp only [matmul]
  rw [Ideal.matmul_constant_zero_apply, ← Equiv.sum_comp (contrEquiv1 dot_S256x2048_S512x2048_S256x512_1_1_0_0_n_n 2048 rfl rfl).symm]
  refine Finset.sum_congr rfl fun j _ => ?_
  have hj := contrEquiv1_symm_val dot_S256x2048_S512x2048_S256x512_1_1_0_0_n_n 2048 rfl rfl j
  have el : dot_S256x2048_S512x2048_S256x512_1_1_0_0_n_n.lhsIdx (ix2 r k) ((contrEquiv1 dot_S256x2048_S512x2048_S256x512_1_1_0_0_n_n 2048 rfl rfl).symm j) = ix2 r j :=
    funext fun a => Fin.ext (by
      match a with
      | ⟨0, _⟩ => exact rows_units_lhs_kept _ _
      | ⟨1, _⟩ => exact (dot_S256x2048_S512x2048_S256x512_1_1_0_0_n_n.lhsIdx_val_of_single rfl _ _).trans hj)
  have er : dot_S256x2048_S512x2048_S256x512_1_1_0_0_n_n.rhsIdx (ix2 r k) ((contrEquiv1 dot_S256x2048_S512x2048_S256x512_1_1_0_0_n_n 2048 rfl rfl).symm j) = ix2 k j :=
    funext fun a => Fin.ext (by
      match a with
      | ⟨0, _⟩ => exact rows_units_rhs_kept _ _
      | ⟨1, _⟩ => exact (dot_S256x2048_S512x2048_S256x512_1_1_0_0_n_n.rhsIdx_val_of_single rfl _ _).trans hj)
  rw [el, er]

/-- The kept axis of each operand of the second product: the row of the left operand, the column of the right one. -/
theorem units_outputs_lhs_kept (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide),
    dif_pos (show (0 : Fin S256x512.rank) ∈ dot_S256x512_S512x2048_S256x2048_1_0_0_1_n_n.lhsNonContracting by decide)]
  rfl

theorem units_outputs_rhs_kept (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide),
    dif_pos (show (1 : Fin S512x2048.rank) ∈ dot_S256x512_S512x2048_S256x2048_1_0_0_1_n_n.rhsNonContracting by decide)]
  rfl

/-- Activations against output weights: the plain product reads row `r` of the left operand against column `o` of
    the right one. -/
theorem units_outputs_apply (A : FVec Ideal S256x512 .bf16) (B : FVec Ideal S512x2048 .bf16) (r : Fin 256) (o : Fin 2048) :
    matmul dot_S256x512_S512x2048_S256x2048_1_0_0_1_n_n none A B (constant S256x2048 .f32 0x00000000#32) (ix2 r o)
      = ∑ k : Fin 512, A (ix2 r k) * B (ix2 k o) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 r o) ((contrEquiv1 dot_S256x512_S512x2048_S256x2048_1_0_0_1_n_n 512 rfl rfl).symm k) = ix2 r k :=
    funext fun a => Fin.ext (by
      match a with
      | ⟨0, _⟩ => exact units_outputs_lhs_kept _ _
      | ⟨1, _⟩ => exact (dot_S256x512_S512x2048_S256x2048_1_0_0_1_n_n.lhsIdx_val_of_single rfl _ _).trans hk)
  have er : dot_S256x512_S512x2048_S256x2048_1_0_0_1_n_n.rhsIdx (ix2 r o) ((contrEquiv1 dot_S256x512_S512x2048_S256x2048_1_0_0_1_n_n 512 rfl rfl).symm k) = ix2 k o :=
    funext fun a => Fin.ext (by
      match a with
      | ⟨0, _⟩ => exact (dot_S256x512_S512x2048_S256x2048_1_0_0_1_n_n.rhsIdx_val_of_single rfl _ _).trans hk
      | ⟨1, _⟩ => exact units_outputs_rhs_kept _ _)
  rw [el, er]

/-! ## The three stored blocks at an entry -/

/-- The block a run starts from is zero everywhere. -/
theorem start_apply (i : S1x256x2048.Idx) : k0_pay2 (F := Ideal) i = 0 := by
  obtain ⟨u, r, o, rfl⟩ : ∃ (u : Fin 1) (r : Fin 256) (o : Fin 2048), i = ix3 u r o := ⟨i 0, i 1, i 2, eq_ix3 i⟩
  unfold k0_pay2
  rw [shapeCast_ab_1ab_apply]
  exact Ideal.ofBits_zero_f32

/-- One step adds to entry `(r, o)` of the accumulator the block's 512 hidden units' contributions. -/
theorem step_apply (x0 : Vec Ideal S1x256x2048 .f32) (x1 : Vec Ideal S1x512x2048 .f32) (x2 : Vec Ideal S1x1x512 .f32)
    (x3 : Vec Ideal S1x512x2048 .f32) (acc : Vec Ideal S1x256x2048 .f32) (u : Fin 1) (r : Fin 256) (o : Fin 2048) :
    k0_pay3 x0 x1 x2 x3 acc (ix3 u r o)
      = acc (ix3 (0 : Fin 1) r o)
        + ∑ k : Fin 512, max ((∑ j : Fin 2048, x0 (ix3 (0 : Fin 1) r j) * x1 (ix3 (0 : Fin 1) k j))
            + x2 (ix3 (0 : Fin 1) (0 : Fin 1) k)) (Ideal.ofBits .f32 0x00000000#32) * x3 (ix3 (0 : Fin 1) k o) := by
  unfold k0_pay3
  rw [shapeCast_ab_1ab_apply, addf_apply, shapeCast_1ab_ab_apply, units_outputs_apply]
  refine congrArg (acc (ix3 (0 : Fin 1) r o) + ·) (Finset.sum_congr rfl fun k _ => ?_)
  rw [truncf_apply, maximumf_apply, addf_apply, rows_units_apply, broadcastTo_1b_ab_apply, shapeCast_1ab_ab_apply,
    broadcast_apply, truncf_apply, shapeCast_1ab_ab_apply]
  simp only [truncf_apply, shapeCast_1ab_ab_apply]
  rfl

/-- The last step's second store adds the output bias row to every row of the block. -/
theorem finish_apply (v : Vec Ideal S1x256x2048 .f32) (b : Vec Ideal S1x1x2048 .f32) (u : Fin 1) (r : Fin 256) (o : Fin 2048) :
    k0_pay1 v b (ix3 u r o) = v (ix3 (0 : Fin 1) r o) + b (ix3 (0 : Fin 1) (0 : Fin 1) o) := by
  unfold k0_pay1
  rw [shapeCast_ab_1ab_apply, addf_apply, shapeCast_1ab_ab_apply, broadcastTo_1b_ab_apply, shapeCast_1ab_ab_apply]

end Cert.KernelIdeal.Body

end
-- ==== Proof.BlockReads.lean ====
/-
  Which entries of the arguments a grid step holds.

  The grid has 8 · 4 · 16 = 512 points; point `t` works for expert `t / 64`, on the rows
  `256·(t / 16 % 4) … + 255` of that expert's input, with the hidden units `512·(t % 16) … + 511`. So at point `t`

    the input block        holds  X [t/64, 256·(t/16 % 4) + r, j],
    the first weight block holds  W1[t/64, 512·(t % 16) + k, j],
    the first bias block   holds  B1[t/64, 512·(t % 16) + k]     (the bias array is first reshaped to [8, 1, 8192]),
    the second weight block holds W2[t/64, 512·(t % 16) + k, o],
    the second bias block  holds  B2[t/64, o]                    (reshaped to [8, 1, 2048]).

  Each index map is decided once over the 512 points; a block's entry then sits at block index × block size + its
  coordinate inside the block, on each axis.
-/
import proofs.«107905_j31155692765926_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ)

/-! ## The index maps over the grid -/

theorem rows_index : ∀ t : Fin cfg0.N, win0_0.index t (0 : Fin 3) = t.val / 64
    ∧ win0_0.index t (1 : Fin 3) = t.val / 16 % 4 ∧ win0_0.index t (2 : Fin 3) = 0 :=
  (by decide +kernel : ∀ t : Fin grid0.N, _)

theorem weights1_index : ∀ t : Fin cfg0.N, win0_1.index t (0 : Fin 3) = t.val / 64
    ∧ win0_1.index t (1 : Fin 3) = t.val % 16 ∧ win0_1.index t (2 : Fin 3) = 0 :=
  (by decide +kernel : ∀ t : Fin grid0.N, _)

theorem bias1_index : ∀ t : Fin cfg0.N, win0_2.index t (0 : Fin 3) = t.val / 64
    ∧ win0_2.index t (1 : Fin 3) = 0 ∧ win0_2.index t (2 : Fin 3) = t.val % 16 :=
  (by decide +kernel : ∀ t : Fin grid0.N, _)

theorem weights2_index : ∀ t : Fin cfg0.N, win0_3.index t (0 : Fin 3) = t.val / 64
    ∧ win0_3.index t (1 : Fin 3) = t.val % 16 ∧ win0_3.index t (2 : Fin 3) = 0 :=
  (by decide +kernel : ∀ t : Fin grid0.N, _)

theorem bias2_index : ∀ t : Fin cfg0.N, win0_4.index t (0 : Fin 3) = t.val / 64
    ∧ win0_4.index t (1 : Fin 3) = 0 ∧ win0_4.index t (2 : Fin 3) = 0 :=
  (by decide +kernel : ∀ t : Fin grid0.N, _)

/-! ## The two reshaped biases -/

/-- The first bias as the region finds it: the `[8, 8192]` argument viewed as `[8, 1, 8192]`. -/
theorem bias1_array (c : Dev nD) :
    (V m c main_v0 : S8x1x8192.Idx → EReal)
      = shapeCast S8x1x8192 (m ((c : Thread nD τ).loc main_arg2)) Facts₀.shapeCasts_S8x8192_S8x1x8192 := by
  dsimp only [V, hostOps0]
  after_results
  rfl

/-- The second bias as the region finds it: the `[8, 2048]` argument viewed as `[8, 1, 2048]`. -/
theorem bias2_array (c : Dev nD) :
    (V m c main_v1 : S8x1x2048.Idx → EReal)
      = shapeCast S8x1x2048 (m ((c : Thread nD τ).loc main_arg4)) Facts₀.shapeCasts_S8x2048_S8x1x2048 := by
  dsimp only [V, hostOps0]
  after_results
  rfl

/-- An `[a, b]` array viewed as `[a, 1, b]` reads, at `(e, 0, h)`, the operand at `(e, h)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (k : Fin b) :
    shapeCast ⟨3, ![a, 1, b]⟩ x h (ix3 e u k) = x (ix2 e k) :=
  shapeCast_apply x h _ _ (by
    have hu : u.val = 0 := by omega
    rw [Shape.rowMajor_val_three, Shape.rowMajor_val_two]
    show e.val * b + k.val = (e.val * 1 + u.val) * b + k.val
    rw [hu, Nat.mul_one, Nat.add_zero])

/-! ## The five input blocks at a point -/

/-- The input block at point `t`. -/
theorem rows_block (c : Dev nD) (t : Fin cfg0.N) (u : Fin 1) (r : Fin 256) (j : Fin 2048) (e : Fin 8) (r' : Fin 1024)
    (he : e.val = t.val / 64) (hr : r'.val = 256 * (t.val / 16 % 4) + r.val) :
    (iblk m c 0 t : Vec Ideal S1x256x2048 .f32) (ix3 u r j) = m ((c : Thread nD τ).loc main_arg0) (ix3 e r' j) := by
  obtain ⟨h0, h1, h2⟩ := rows_index t
  unfold iblk
  rw [View.read_apply]
  show V m c main_arg0 _ = _
  rw [V_main_arg0 m c]
  refine congrArg _ (funext fun a => Fin.ext ?_)
  match a with
  | ⟨0, _⟩ => show win0_0.index t (0 : Fin 3) * 1 + 1 * u.val = e.val; rw [h0, he]; omega
  | ⟨1, _⟩ => show win0_0.index t (1 : Fin 3) * 256 + 1 * r.val = r'.val; rw [h1, hr]; omega
  | ⟨2, _⟩ => show win0_0.index t (2 : Fin 3) * 2048 + 1 * j.val = j.val; rw [h2]; omega

/-- The first weight block at point `t`. -/
theorem weights1_block (c : Dev nD) (t : Fin cfg0.N) (u : Fin 1) (k : Fin 512) (j : Fin 2048) (e : Fin 8) (h : Fin 8192)
    (he : e.val = t.val / 64) (hh : h.val = 512 * (t.val % 16) + k.val) :
    (iblk m c 1 t : Vec Ideal S1x512x2048 .f32) (ix3 u k j) = m ((c : Thread nD τ).loc main_arg1) (ix3 e h j) := by
  obtain ⟨h0, h1, h2⟩ := weights1_index t
  unfold iblk
  rw [View.read_apply]
  show V m c main_arg1 _ = _
  rw [V_main_arg1 m c]
  refine congrArg _ (funext fun a => Fin.ext ?_)
  match a with
  | ⟨0, _⟩ => show win0_1.index t (0 : Fin 3) * 1 + 1 * u.val = e.val; rw [h0, he]; omega
  | ⟨1, _⟩ => show win0_1.index t (1 : Fin 3) * 512 + 1 * k.val = h.val; rw [h1, hh]; omega
  | ⟨2, _⟩ => show win0_1.index t (2 : Fin 3) * 2048 + 1 * j.val = j.val; rw [h2]; omega

/-- The first bias block at point `t`. -/
theorem bias1_block (c : Dev nD) (t : Fin cfg0.N) (u v : Fin 1) (k : Fin 512) (e : Fin 8) (h : Fin 8192)
    (he : e.val = t.val / 64) (hh : h.val = 512 * (t.val % 16) + k.val) :
    (iblk m c 2 t : Vec Ideal S1x1x512 .f32) (ix3 u v k) = m ((c : Thread nD τ).loc main_arg2) (ix2 e h) := by
  obtain ⟨h0, h1, h2⟩ := bias1_index t
  unfold iblk
  rw [View.read_apply]
  show (V m c main_v0 : S8x1x8192.Idx → EReal) _ = _
  rw [bias1_array m c]
  refine (congrArg _ (funext fun a => Fin.ext ?_)).trans (shapeCast_ab_a1b_apply _ _ e (0 : Fin 1) h)
  match a with
  | ⟨0, _⟩ => show win0_2.index t (0 : Fin 3) * 1 + 1 * u.val = e.val; rw [h0, he]; omega
  | ⟨1, _⟩ => show win0_2.index t (1 : Fin 3) * 1 + 1 * v.val = 0; rw [h1]; omega
  | ⟨2, _⟩ => show win0_2.index t (2 : Fin 3) * 512 + 1 * k.val = h.val; rw [h2, hh]; omega

/-- The second weight block at point `t`. -/
theorem weights2_block (c : Dev nD) (t : Fin cfg0.N) (u : Fin 1) (k : Fin 512) (o : Fin 2048) (e : Fin 8) (h : Fin 8192)
    (he : e.val = t.val / 64) (hh : h.val = 512 * (t.val % 16) + k.val) :
    (iblk m c 3 t : Vec Ideal S1x512x2048 .f32) (ix3 u k o) = m ((c : Thread nD τ).loc main_arg3) (ix3 e h o) := by
  obtain ⟨h0, h1, h2⟩ := weights2_index t
  unfold iblk
  rw [View.read_apply]
  show V m c main_arg3 _ = _
  rw [V_main_arg3 m c]
  refine congrArg _ (funext fun a => Fin.ext ?_)
  match a with
  | ⟨0, _⟩ => show win0_3.index t (0 : Fin 3) * 1 + 1 * u.val = e.val; rw [h0, he]; omega
  | ⟨1, _⟩ => show win0_3.index t (1 : Fin 3) * 512 + 1 * k.val = h.val; rw [h1, hh]; omega
  | ⟨2, _⟩ => show win0_3.index t (2 : Fin 3) * 2048 + 1 * o.val = o.val; rw [h2]; omega

/-- The second bias block at point `t`. -/
theorem bias2_block (c : Dev nD) (t : Fin cfg0.N) (u v : Fin 1) (o : Fin 2048) (e : Fin 8) (he : e.val = t.val / 64) :
    (iblk m c 4 t : Vec Ideal S1x1x2048 .f32) (ix3 u v o) = m ((c : Thread nD τ).loc main_arg4) (ix2 e o) := by
  obtain ⟨h0, h1, h2⟩ := bias2_index t
  unfold iblk
  rw [View.read_apply]
  show (V m c main_v1 : S8x1x2048.Idx → EReal) _ = _
  rw [bias2_array m c]
  refine (congrArg _ (funext fun a => Fin.ext ?_)).trans (shapeCast_ab_a1b_apply _ _ e (0 : Fin 1) o)
  match a with
  | ⟨0, _⟩ => show win0_4.index t (0 : Fin 3) * 1 + 1 * u.val = e.val; rw [h0, he]; omega
  | ⟨1, _⟩ => show win0_4.index t (1 : Fin 3) * 1 + 1 * v.val = 0; rw [h1]; omega
  | ⟨2, _⟩ => show win0_4.index t (2 : Fin 3) * 2048 + 1 * o.val = o.val; rw [h2]; omega

end Cert.KernelIdeal.Blocks

end
-- ==== Proof.Accumulated.lean ====
/-
  What the output array holds after the run: the network `ExpertFfn.ffn` of the five arguments.

  Sixteen consecutive grid points share one output block (one expert, 256 rows, all 2048 outputs). The first of
  them starts from zero and adds the contributions of hidden units 0 … 511; each later one adds the next 512 units to
  what the point before left; the sixteenth then adds the output bias and the block is written back. So the block
  ends at

      0 + Σ_{s < 16} Σ_{k < 512} term (512·s + k)  +  B2   =   Σ_{h < 8192} term h  +  B2,

  the regrouping of a finite sum of extended reals into consecutive blocks. No finiteness of the inputs is used.
-/
import proofs.«107905_j31155692765926_2_alg».proof.Proof.Gen.KernelIdeal.Value
import proofs.«107905_j31155692765926_2_alg».proof.Proof.BodyValue
import proofs.«107905_j31155692765926_2_alg».proof.Proof.BlockReads
import proofs.«107905_j31155692765926_2_alg».proof.Proof.ExpertFfn

noncomputable section

open scoped BigOperators

namespace Cert.KernelIdeal.Total

open Cert.KernelIdeal Cert.KernelIdeal.Gen Idealize.ShloMosaic Idealize.ShloMosaic.TcCoe Idealize.SL.Sem
  Idealize.ShloMosaic.ValueIdx Cert.ExpertFfn

variable (m : (ℓ : Loc nD τ sig) → Buf (Elt Ideal) ℓ)

/-- The expert, the input row and the hidden unit that point `n`'s block coordinates stand for. -/
abbrev expertAt (n : ℕ) (hn : n < 512) : Fin 8 := ⟨n / 64, by omega⟩
abbrev rowAt (n : ℕ) (hn : n < 512) (r : Fin 256) : Fin 1024 := ⟨256 * (n / 16 % 4) + r.val, by omega⟩
abbrev unitAt (n : ℕ) (k : Fin 512) : Fin 8192 := ⟨512 * (n % 16) + k.val, by omega⟩

/-- What point `n` adds to entry `y` of its output block: the contributions of its 512 hidden units to that entry's
    row and output. (Past the grid, nothing.) -/
def addend (c : Dev nD) (n : ℕ) (y : S1x256x2048.Idx) : EReal :=
  if hn : n < 512 then
    ∑ k : Fin 512, term (m ((c : Thread nD τ).loc main_arg0)) (m ((c : Thread nD τ).loc main_arg1))
      (m ((c : Thread nD τ).loc main_arg2)) (m ((c : Thread nD τ).loc main_arg3))
      (expertAt n hn) (rowAt n hn (y 1)) (y 2) (unitAt n k)
  else 0

/-- One step at point `t`, over the point's input blocks, adds `addend t` to the accumulator, entry by entry. -/
theorem step_adds (c : Dev nD) (t : Fin cfg0.N) (acc : Vec Ideal S1x256x2048 .f32) (y : S1x256x2048.Idx) :
    k0_pay3 (iblk m c 0 t) (iblk m c 1 t) (iblk m c 2 t) (iblk m c 3 t) acc y = acc y + addend m c t.val y := by
  have hN : t.val < 512 := lt_of_lt_of_eq t.isLt (show cfg0.N = 512 from N_0)
  obtain ⟨u, r, o, rfl⟩ : ∃ (u : Fin 1) (r : Fin 256) (o : Fin 2048), y = ix3 u r o := ⟨y 0, y 1, y 2, eq_ix3 y⟩
  obtain rfl : u = 0 := Fin.ext (by omega)
  refine (Body.step_apply (iblk m c 0 t) (iblk m c 1 t) (iblk m c 2 t) (iblk m c 3 t) acc 0 r o).trans ?_
  refine congrArg (acc (ix3 (0 : Fin 1) r o) + ·) ?_
  unfold addend
  rw [dif_pos hN]
  refine Finset.sum_congr rfl fun k _ => ?_
  refine Eq.trans ?_ (term_congr _ _ _ _ (e := expertAt t.val hN) (r := rowAt t.val hN r) (o := o) (h := unitAt t.val k)
    rfl rfl rfl rfl)
  unfold term act
  rw [Blocks.weights2_block m c t 0 k o (expertAt t.val hN) (unitAt t.val k) rfl rfl,
    Blocks.bias1_block m c t 0 0 k (expertAt t.val hN) (unitAt t.val k) rfl rfl]
  refine congrArg (fun s => max (s + _) _ * _) (Finset.sum_congr rfl fun j _ => ?_)
  rw [Blocks.rows_block m c t 0 r j (expertAt t.val hN) (rowAt t.val hN r) rfl rfl,
    Blocks.weights1_block m c t 0 k j (expertAt t.val hN) (unitAt t.val k) rfl rfl]

/-- The fold of a run of sixteen points starting at `b = 16·q`, at entry `y` of the block: the sixteen addends and the
    output bias of the run's expert. -/
theorem fold_eq (c : Dev nD) (b q : ℕ) (hb : b = 16 * q) (h : b + 15 < cfg0.N) (e : Fin 8) (he : e.val = q / 4)
    (y : S1x256x2048.Idx) :
    Pipeline.accAt (Value.reset5 m c) (Value.step5 m c) b 15 h y
      = (∑ s ∈ Finset.range 16, addend m c (b + s) y) + m ((c : Thread nD τ).loc main_arg4) (ix2 e (y 2)) := by
  have hN : cfg0.N = 512 := N_0
  obtain ⟨u, r, o, rfl⟩ : ∃ (u : Fin 1) (r : Fin 256) (o : Fin 2048), y = ix3 u r o := ⟨y 0, y 1, y 2, eq_ix3 y⟩
  obtain rfl : u = 0 := Fin.ext (by omega)
  -- the first fifteen points: zero, then one addend per point
  have h14 : b + 14 < cfg0.N := by omega
  have first : Pipeline.accAt (Value.reset5 m c) (Value.step5 m c) b 14 h14 (ix3 (0 : Fin 1) r o)
      = 0 + ∑ s ∈ Finset.range 15, addend m c (b + s) (ix3 (0 : Fin 1) r o) :=
    Pipeline.accAt_add_apply (N := cfg0.N) (ι := S1x256x2048.Idx) (β := EReal) (Value.reset5 m c) (Value.step5 m c)
      (fun _ => 0) (fun n z => addend m c n z) b 14
      (fun hb0 z => by
        show k0_pay3 (iblk m c 0 ⟨b, hb0⟩) (iblk m c 1 ⟨b, hb0⟩) (iblk m c 2 ⟨b, hb0⟩) (iblk m c 3 ⟨b, hb0⟩)
          (k0_pay2 (F := Ideal)) z = _
        rw [step_adds m c ⟨b, hb0⟩ _ z, Body.start_apply])
      (fun n hn acc z h1 h2 => by
        unfold Value.step5
        rw [if_pos ⟨by omega, by omega⟩]
        exact step_adds m c ⟨n, hn⟩ acc z)
      14 le_rfl h14 (ix3 (0 : Fin 1) r o)
  -- the sixteenth point adds its addend and then the bias row
  refine (congrFun (Pipeline.accAt_succ (Value.reset5 m c) (Value.step5 m c) b 14 h) (ix3 (0 : Fin 1) r o)).trans ?_
  generalize Pipeline.accAt (Value.reset5 m c) (Value.step5 m c) b 14 h14 = before at first ⊢
  unfold Value.step5
  rw [if_neg (by omega), if_pos ⟨by omega, by omega⟩]
  refine (Body.finish_apply _ _ 0 r o).trans ?_
  rw [step_adds m c ⟨b + (14 + 1), h⟩ before (ix3 0 r o), first,
    Blocks.bias2_block m c ⟨b + (14 + 1), h⟩ 0 0 o e (by show e.val = (b + (14 + 1)) / 64; omega), zero_add]
  exact congrArg (· + _) (Finset.sum_range_succ (fun s => addend m c (b + s) (ix3 (0 : Fin 1) r o)) 15).symm

/-- The array after the run is the network of the arguments. -/
theorem result_is_ffn (c : Dev nD) :
    Value.G5 m c = ffn (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  have hi0 : (i 0).val < 8 := (i 0).isLt
  have hi1 : (i 1).val < 1024 := (i 1).isLt
  have hi2 : (i 2).val < 2048 := (i 2).isLt
  have hN : cfg0.N = 512 := N_0
  have hq : Value.run5Of i = 4 * (i 0).val + (i 1).val / 256 := by
    show 4 * ((i 0).val / 1 - 0) + 1 * ((i 1).val / 256 - 0) + 1 * ((i 2).val / 2048 - 0) = _
    have : (i 2).val / 2048 = 0 := by omega
    omega
  unfold Value.G5
  rw [dif_pos (by rw [hq, hN]; omega),
    fold_eq m c (16 * Value.run5Of i) (4 * (i 0).val + (i 1).val / 256) (by rw [hq]) _ ⟨(i 0).val, hi0⟩ (by show (i 0).val = _; omega)]
  unfold ffn
  refine congrArg₂ (· + ·) ?_ (congrArg _ (funext fun a => Fin.ext ?_))
  · refine sum_sixteen_blocks _ _ fun s hs => ?_
    unfold addend
    rw [dif_pos (by rw [hq]; omega)]
    refine Finset.sum_congr rfl fun k _ => term_congr _ _ _ _ ?_ ?_ ?_ ?_
    · show (16 * Value.run5Of i + s) / 64 = (i 0).val
      rw [hq]; omega
    · show 256 * ((16 * Value.run5Of i + s) / 16 % 4) + (i 1).val % 256 = (i 1).val
      rw [hq]; omega
    · show (i 2).val % 2048 = (i 2).val
      omega
    · show 512 * ((16 * Value.run5Of i + s) % 16) + k.val = 512 * s + k.val
      rw [hq]; omega
  · match a with
    | ⟨0, _⟩ => rfl
    | ⟨1, _⟩ => show (i 2).val % 2048 = (i 2).val; omega

end Cert.KernelIdeal.Total

end
-- ==== Proof.lean ====
/-
  A grouped feed-forward network of eight experts: for expert `e`, row `r` and output `o`,

      out[e,r,o] = Σ_h max (Σ_j x[e,r,j] · w1[e,h,j] + b1[e,h]) 0 · w2[e,h,o]  +  b2[e,o]

  with 2048 inputs `j`, 8192 hidden units `h` and 2048 outputs. The reference computes it with two whole matrix
  products. The kernel computes each block of 256 rows in sixteen steps of 512 hidden units: the first step starts
  the output block from zero, every step adds its units' contributions, the last one adds the output bias. On the
  extended reals the sixteen partial sums regroup into the one sum over all hidden units (addition is commutative and
  associative there, with no condition on the terms), the roundings to sixteen bits on the way into the products are
  the identity, and a product accumulated into zero is the plain sum over its contracted axis — so both programs end
  with the same array, `ExpertFfn.ffn` of the arguments (`Total.result_is_ffn` for the kernel,
  `RefValue.reference_is_ffn` for the reference). The precondition is not used by the value claim. The frames are the
  programs' runs with the results dropped; the idealization changed nothing, so the preservation claim is trivial.
-/
import proofs.«107905_j31155692765926_2_alg».proof.Defs
import proofs.«107905_j31155692765926_2_alg».proof.Proof.Gen.Kernel.Frame
import proofs.«107905_j31155692765926_2_alg».proof.Proof.Gen.KernelIdeal.Value
import proofs.«107905_j31155692765926_2_alg».proof.Proof.Gen.Pre_finite_inputs
import proofs.«107905_j31155692765926_2_alg».proof.Proof.Gen.ReferenceIdeal.Run
import proofs.«107905_j31155692765926_2_alg».proof.Proof.ReferenceValue
import proofs.«107905_j31155692765926_2_alg».proof.Proof.Accumulated
import Idealize.ShloMosaic.Adequacy
import Idealize.ShloMosaic.Init

noncomputable section

namespace Cert.Proof

open Idealize.ShloMosaic Idealize.SL.Sem

/-- The idealized kernel's run terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- So does the idealized reference's. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the five arguments both runs end with the network of those arguments in their
    result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v8_eq _ _ _ _ _).trans
    (Cert.ReferenceIdeal.RefValue.reference_is_ffn _ _ _ _ _)).trans (Cert.KernelIdeal.Total.result_is_ffn m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
